-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S785x128 : Shape := ⟨2, ![785, 128]⟩
abbrev S129x64 : Shape := ⟨2, ![129, 64]⟩
abbrev S65x10 : Shape := ⟨2, ![65, 10]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S785x128 : S_.BroadcastsInDim S785x128 (![] : Fin 0 → Fin S785x128.rank)
  reducesTo_S785x128_S_d0_1 : S785x128.ReducesTo [0, 1] S_
  bcast_S_S129x64 : S_.BroadcastsInDim S129x64 (![] : Fin 0 → Fin S129x64.rank)
  reducesTo_S129x64_S_d0_1 : S129x64.ReducesTo [0, 1] S_
  bcast_S_S65x10 : S_.BroadcastsInDim S65x10 (![] : Fin 0 → Fin S65x10.rank)
  reducesTo_S65x10_S_d0_1 : S65x10.ReducesTo [0, 1] S_

variable [Facts]

def fn_part1 {F : FTy → Type} [FloatOps F] (main_v13 : IVec S_ 1) (main_v16 : IVec S65x10 1) : IVec S_ 1 :=
  let main_c_5 : IVec S_ 1 := constantI S_ 1 1#1
  let main_v17 : IVec S_ 1 := (fun x v => Host.reduce IntOp.andi x v reducesTo_S65x10_S_d0_1 h_S_) main_v16 main_c_5
  let main_v18 : IVec S_ 1 := andi main_v13 main_v17
  main_v18

def fn {F : FTy → Type} [FloatOps F] (main_arg0 : FVec F S65536x784 .f32) (main_arg1 : FVec F S785x128 .f32) (main_arg2 : FVec F S129x64 .f32) (main_arg3 : FVec F S65x10 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S785x128 .f32 := Host.absf main_arg1
  let main_cst_0 : FVec F S_ .f32 := constant S_ .f32 0x7F800000#32
  let main_v5 : FVec F S785x128 .f32 := broadcastInDim S785x128 ![] bcast_S_S785x128 main_cst_0
  let main_v6 : IVec S785x128 1 := cmpf .olt main_v4 main_v5
  let main_c_1 : IVec S_ 1 := constantI S_ 1 1#1
  let main_v7 : IVec S_ 1 := (fun x v => Host.reduce IntOp.andi x v reducesTo_S785x128_S_d0_1 h_S_) main_v6 main_c_1
  let main_v8 : IVec S_ 1 := andi main_v3 main_v7
  let main_v9 : FVec F S129x64 .f32 := Host.absf main_arg2
  let main_cst_2 : FVec F S_ .f32 := constant S_ .f32 0x7F800000#32
  let main_v10 : FVec F S129x64 .f32 := broadcastInDim S129x64 ![] bcast_S_S129x64 main_cst_2
  let main_v11 : IVec S129x64 1 := cmpf .olt main_v9 main_v10
  let main_c_3 : IVec S_ 1 := constantI S_ 1 1#1
  let main_v12 : IVec S_ 1 := (fun x v => Host.reduce IntOp.andi x v reducesTo_S129x64_S_d0_1 h_S_) main_v11 main_c_3
  let main_v13 : IVec S_ 1 := andi main_v8 main_v12
  let main_v14 : FVec F S65x10 .f32 := Host.absf main_arg3
  let main_cst_4 : FVec F S_ .f32 := constant S_ .f32 0x7F800000#32
  let main_v15 : FVec F S65x10 .f32 := broadcastInDim S65x10 ![] bcast_S_S65x10 main_cst_4
  let main_v16 : IVec S65x10 1 := cmpf .olt main_v14 main_v15
  fn_part1 (F := F) main_v13 main_v16
-- ==== Kernel.lean ====
abbrev S65536x784 : Shape := ⟨2, ![65536, 784]⟩
abbrev S785x128 : Shape := ⟨2, ![785, 128]⟩
abbrev S129x64 : Shape := ⟨2, ![129, 64]⟩
abbrev S65x10 : Shape := ⟨2, ![65, 10]⟩
abbrev S784x128 : Shape := ⟨2, ![784, 128]⟩
abbrev S1x128 : Shape := ⟨2, ![1, 128]⟩
abbrev S128x64 : Shape := ⟨2, ![128, 64]⟩
abbrev S1x64 : Shape := ⟨2, ![1, 64]⟩
abbrev S64x10 : Shape := ⟨2, ![64, 10]⟩
abbrev S1x10 : Shape := ⟨2, ![1, 10]⟩
abbrev S_ : Shape := ⟨0, ![]⟩
abbrev S64x128 : Shape := ⟨2, ![64, 128]⟩
abbrev S65536x128 : Shape := ⟨2, ![65536, 128]⟩
abbrev S4096x784 : Shape := ⟨2, ![4096, 784]⟩
abbrev S4096x128 : Shape := ⟨2, ![4096, 128]⟩
abbrev S4096x64 : Shape := ⟨2, ![4096, 64]⟩
abbrev S65536x10 : Shape := ⟨2, ![65536, 10]⟩

abbrev nBuf : Space → Nat
  | .hbm => 21
  | .vmem => 10
  | .smem => 0
  | _ => 0

abbrev bufTy : (tb : Table) → Fin (tcTables nBuf tb) → BufTy
  | .hbm, ⟨0, _⟩ => ⟨S65536x784, .f32⟩
  | .hbm, ⟨1, _⟩ => ⟨S785x128, .f32⟩
  | .hbm, ⟨2, _⟩ => ⟨S129x64, .f32⟩
  | .hbm, ⟨3, _⟩ => ⟨S65x10, .f32⟩
  | .hbm, ⟨4, _⟩ => ⟨S784x128, .f32⟩
  | .hbm, ⟨5, _⟩ => ⟨S1x128, .f32⟩
  | .hbm, ⟨6, _⟩ => ⟨S128x64, .f32⟩
  | .hbm, ⟨7, _⟩ => ⟨S1x64, .f32⟩
  | .hbm, ⟨8, _⟩ => ⟨S64x10, .f32⟩
  | .hbm, ⟨9, _⟩ => ⟨S1x10, .f32⟩
  | .hbm, ⟨10, _⟩ => ⟨S_, .i32⟩
  | .hbm, ⟨11, _⟩ => ⟨S_, .f32⟩
  | .hbm, ⟨12, _⟩ => ⟨S64x128, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S784x128, .bf16⟩
  | .hbm, ⟨17, _⟩ => ⟨S128x64, .bf16⟩
  | .hbm, ⟨18, _⟩ => ⟨S64x128, .bf16⟩
  | .hbm, ⟨19, _⟩ => ⟨S65536x128, .f32⟩
  | .hbm, ⟨20, _⟩ => ⟨S65536x10, .f32⟩
  | .local _ .vmem, ⟨0, _⟩ => ⟨S4096x784, .f32⟩
  | .local _ .vmem, ⟨1, _⟩ => ⟨S4096x784, .f32⟩
  | .local _ .vmem, ⟨2, _⟩ => ⟨S784x128, .bf16⟩
  | .local _ .vmem, ⟨3, _⟩ => ⟨S1x128, .f32⟩
  | .local _ .vmem, ⟨4, _⟩ => ⟨S128x64, .bf16⟩
  | .local _ .vmem, ⟨5, _⟩ => ⟨S1x64, .f32⟩
  | .local _ .vmem, ⟨6, _⟩ => ⟨S64x128, .bf16⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S785x128_S784x128_0_0 : S785x128.Slices ![0, 0] S784x128
  slices_S785x128_S1x128_784_0 : S785x128.Slices ![784, 0] S1x128
  slices_S129x64_S128x64_0_0 : S129x64.Slices ![0, 0] S128x64
  slices_S129x64_S1x64_128_0 : S129x64.Slices ![128, 0] S1x64
  slices_S65x10_S64x10_0_0 : S65x10.Slices ![0, 0] S64x10
  slices_S65x10_S1x10_64_0 : S65x10.Slices ![64, 0] S1x10
  pads_S64x10_S64x128_000_01180 : S64x10.Pads (![0, 0] : Fin 2 → Nat) ![0, 118] ![0, 0] S64x128
  h_S_ : 0 < S_.numel
  pads_S1x10_S1x128_000_01180 : S1x10.Pads (![0, 0] : Fin 2 → Nat) ![0, 118] ![0, 0] S1x128
  bitsLt_bf16_f32 : FTy.bits .bf16 < FTy.bits .f32
  inb_S4096x784_S4096x784_0_0 : ∀ a, (![0, 0] : Fin 2 → Nat) a + S4096x784.size a ≤ S4096x784.size a
  h_S4096x784 : 0 < S4096x784.numel
  inb_S784x128_S784x128_0_0 : ∀ a, (![0, 0] : Fin 2 → Nat) a + S784x128.size a ≤ S784x128.size a
  h_S784x128 : 0 < S784x128.numel
  shapeCasts_S784x128_S784x128 : S784x128.ShapeCasts S784x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S4096x128_S4096x128_0_0 : ∀ a, (![0, 0] : Fin 2 → Nat) a + S4096x128.size a ≤ S4096x128.size a
  h_S4096x128 : 0 < S4096x128.numel
  slices_S65536x128_S65536x10_0_0 : S65536x128.Slices ![0, 0] S65536x10
  dot_S4096x784_S784x128_S4096x128_1_0_0_1_n_n_wf : DotDims.WF S4096x784 S784x128 S4096x128 [1] [0] [0] [1] [] []
  dot_S4096x128_S128x64_S4096x64_1_0_0_1_n_n_wf : DotDims.WF S4096x128 S128x64 S4096x64 [1] [0] [0] [1] [] []
  dot_S4096x64_S64x128_S4096x128_1_0_0_1_n_n_wf : DotDims.WF S4096x64 S64x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x784.size a ≤ S65536x784.size a
  hwx0_0 : ∀ i : grid0.Coords, EltTy.bits .f32 = 32 ∨ (Rect.block (s := S65536x784) S4096x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x128.size a ≤ S784x128.size a
  hwx0_1 : ∀ i : grid0.Coords, EltTy.bits .bf16 = 32 ∨ (Rect.block (s := S784x128) S784x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .bf16 = 32 ∨ (Rect.block (s := S64x128) S64x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S65536x128.size a
  hwx0_7 : ∀ i : grid0.Coords, EltTy.bits .f32 = 32 ∨ (Rect.block (s := S65536x128) S4096x128.size (cc0_transform_7 i) (hinb0_7 i)).WholeWords (EltTy.packing .f32)

variable [Facts₀]

def dot_S4096x784_S784x128_S4096x128_1_0_0_1_n_n : DotDims S4096x784 S784x128 S4096x128 where
  lhsContracting := [1]
  rhsContracting := [0]
  lhsNonContracting := [0]
  rhsNonContracting := [1]
  lhsBatch := []
  rhsBatch := []
  wf := dot_S4096x784_S784x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf

abbrev win0_0 : Pipeline.Window sig grid0 :=
  Pipeline.Window.ofSpec (Memref.whole main_arg0) S4096x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S784x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x784 : Shape := ⟨2, ![65536, 784]⟩
abbrev S785x128 : Shape := ⟨2, ![785, 128]⟩
abbrev S129x64 : Shape := ⟨2, ![129, 64]⟩
abbrev S65x10 : Shape := ⟨2, ![65, 10]⟩
abbrev S_ : Shape := ⟨0, ![]⟩
abbrev S65536x1 : Shape := ⟨2, ![65536, 1]⟩
abbrev S65536x785 : Shape := ⟨2, ![65536, 785]⟩
abbrev S65536x128 : Shape := ⟨2, ![65536, 128]⟩
abbrev S65536x129 : Shape := ⟨2, ![65536, 129]⟩
abbrev S65536x64 : Shape := ⟨2, ![65536, 64]⟩
abbrev S65536x65 : Shape := ⟨2, ![65536, 65]⟩
abbrev S65536x10 : Shape := ⟨2, ![65536, 10]⟩

abbrev nBuf : Space → Nat
  | .hbm => 22
  | .vmem => 0
  | .smem => 0
  | _ => 0

abbrev bufTy : (tb : Table) → Fin (tcTables nBuf tb) → BufTy
  | .hbm, ⟨0, _⟩ => ⟨S65536x784, .f32⟩
  | .hbm, ⟨1, _⟩ => ⟨S785x128, .f32⟩
  | .hbm, ⟨2, _⟩ => ⟨S129x64, .f32⟩
  | .hbm, ⟨3, _⟩ => ⟨S65x10, .f32⟩
  | .hbm, ⟨4, _⟩ => ⟨S_, .f32⟩
  | .hbm, ⟨5, _⟩ => ⟨S65536x1, .f32⟩
  | .hbm, ⟨6, _⟩ => ⟨S65536x785, .f32⟩
  | .hbm, ⟨7, _⟩ => ⟨S65536x128, .f32⟩
  | .hbm, ⟨8, _⟩ => ⟨S_, .f32⟩
  | .hbm, ⟨9, _⟩ => ⟨S65536x128, .f32⟩
  | .hbm, ⟨10, _⟩ => ⟨S65536x128, .f32⟩
  | .hbm, ⟨11, _⟩ => ⟨S_, .f32⟩
  | .hbm, ⟨12, _⟩ => ⟨S65536x1, .f32⟩
  | .hbm, ⟨13, _⟩ => ⟨S65536x129, .f32⟩
  | .hbm, ⟨14, _⟩ => ⟨S65536x64, .f32⟩
  | .hbm, ⟨15, _⟩ => ⟨S_, .f32⟩
  | .hbm, ⟨16, _⟩ => ⟨S65536x64, .f32⟩
  | .hbm, ⟨17, _⟩ => ⟨S65536x64, .f32⟩
  | .hbm, ⟨18, _⟩ => ⟨S_, .f32⟩
  | .hbm, ⟨19, _⟩ => ⟨S65536x1, .f32⟩
  | .hbm, ⟨20, _⟩ => ⟨S65536x65, .f32⟩
  | .hbm, ⟨21, _⟩ => ⟨S65536x10, .f32⟩
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  bcast_S_S65536x1 : S_.BroadcastsInDim S65536x1 (![] : Fin 0 → Fin S65536x1.rank)
  concatenates_S65536x784_S65536x1_S65536x785_d1 : Shape.Concatenates [S65536x784, S65536x1] S65536x785 1
  bcast_S_S65536x128 : S_.BroadcastsInDim S65536x128 (![] : Fin 0 → Fin S65536x128.rank)
  concatenates_S65536x128_S65536x1_S65536x129_d1 : Shape.Concatenates [S65536x128, S65536x1] S65536x129 1
  bcast_S_S65536x64 : S_.BroadcastsInDim S65536x64 (![] : Fin 0 → Fin S65536x64.rank)
  concatenates_S65536x64_S65536x1_S65536x65_d1 : Shape.Concatenates [S65536x64, S65536x1] S65536x65 1
  dot_S65536x785_S785x128_S65536x128_1_0_0_1_n_n_wf : DotDims.WF S65536x785 S785x128 S65536x128 [1] [0] [0] [1] [] []
  dot_S65536x129_S129x64_S65536x64_1_0_0_1_n_n_wf : DotDims.WF S65536x129 S129x64 S65536x64 [1] [0] [0] [1] [] []
  dot_S65536x65_S65x10_S65536x10_1_0_0_1_n_n_wf : DotDims.WF S65536x65 S65x10 S65536x10 [1] [0] [0] [1] [] []

variable [Facts₀]

def dot_S65536x785_S785x128_S65536x128_1_0_0_1_n_n : DotDims S65536x785 S785x128 S65536x128 where
  lhsContracting := [1]
  rhsContracting := [0]
  lhsNonContracting := [0]
  rhsNonContracting := [1]
  lhsBatch := []
  rhsBatch := []
  wf := dot_S65536x785_S785x128_S65536x128_1_0_0_1_n_n_wf
def dot_S65536x129_S129x64_S65536x64_1_0_0_1_n_n : DotDims S65536x129 S129x64 S65536x64 where
  lhsContracting := [1]
  rhsContracting := [0]
  lhsNonContracting := [0]
  rhsNonContracting := [1]
  lhsBatch := []
  rhsBatch := []
  wf := dot_S65536x129_S129x64_S65536x64_1_0_0_1_n_n_wf
def dot_S65536x65_S65x10_S65536x10_1_0_0_1_n_n : DotDims S65536x65 S65x10 S65536x10 where
  lhsContracting := [1]
  rhsContracting := [0]
  lhsNonContracting := [0]
  rhsNonContracting := [1]
  lhsBatch := []
  rhsBatch := []
  wf := dot_S65536x65_S65x10_S65536x10_1_0_0_1_n_n_wf

class Facts : Prop extends Facts₀ where

variable [Facts]
-- ==== Proof.LibPlainProduct.lean ====
/-
  A matrix product into a zero accumulator, read at an entry.

  For the plain dimension numbers (left operand contracted on its last axis, right operand on its first, no batch
  axis) the product of an m×k by a k×n matrix accumulated into the zero matrix has, at row `a` and column `b`, the
  value `∑ c, A (a, c) · B (c, b)` on the extended reals. This is the accumulating-product counterpart of the library's
  `dotGeneral_plain_apply`, with the same proof: the contraction's index set is one axis of extent `k`, re-indexed by
  `Fin k`, and the two operand indices at a contraction index are `(a, c)` and `(c, b)`.
-/
import Idealize.ShloMosaic.PureOps.Ideal.Laws
import Idealize.ShloMosaic.Lib.ValueIdx
import Idealize.ShloMosaic.Lib.StackMember

noncomputable section

namespace Cert.LibPlainProduct

open Idealize.ShloMosaic Idealize.ShloMosaic.ValueIdx

variable {m n : Nat}

/-- The left operand's index at output entry `(a, b)` and contraction coordinate `c` is `(a, c)`. -/
theorem plain_lhsIdx {k : Nat} (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output entry `(a, b)` and contraction coordinate `c` is `(c, b)`. -/
theorem plain_rhsIdx {k : Nat} (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The plain product of an m×k by a k×n matrix accumulated into zero, at entry `(a, b)`, is the sum over the
    contracted coordinate of the products of the entries. At the ideal values. -/
theorem matmul_plain_zero_apply {k : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Cert.LibPlainProduct

end
-- ==== Proof.Spec.lean ====
/-
  The function both programs compute: a three-layer perceptron applied to each row.

  A dense layer maps a row `h` of length `n` to the entries `(∑ k, h k · w k) + b`, one per output column, where `w`
  is that column of the layer's weight matrix and `b` that column's bias. The first two layers are followed by
  `max · 0`; the last one is not. An entry of the result therefore depends on ONE row of the input and, in the last
  layer, on ONE column of the last weight matrix and one bias entry.

  The bias can be given in two ways: as a separate number, or as the last row of a weight matrix that has one more row
  than the layer has inputs, met by a row that was extended by a trailing `1`. `sum_snoc_one` says the two agree: on the
  extended reals `∑ k < n + 1, g k · w k` splits off its last term, and `1 · w n = w n`. Addition of extended reals is
  commutative and associative and `1` is a unit for their product, whatever the entries are, so nothing has to be finite.
-/
import Idealize.ShloMosaic.PureOps.Ideal.Laws
import Idealize.ShloMosaic.Lib.ValueIdx

noncomputable section

namespace Cert.Mlp

open Idealize.ShloMosaic Idealize.ShloMosaic.ValueIdx

/-- One entry of a dense layer: the inner product of the row `h` with the weight column `w`, plus the bias `b`. -/
def lin {n : ℕ} (h w : Fin n → EReal) (b : EReal) : EReal := (∑ k : Fin n, h k * w k) + b

/-- A row `g` of length `n + 1` that is `h` followed by `1`, against a column `w` of length `n + 1`: the inner product is the
    dense-layer entry of `h` with the first `n` entries of `w` as weights and the last entry of `w` as bias. -/
theorem sum_snoc_one {n : ℕ} (g w : Fin (n + 1) → EReal) (h : Fin n → EReal)
    (hg : ∀ k : Fin n, g k.castSucc = h k) (hl : g (Fin.last n) = 1) :
    ∑ k : Fin (n + 1), g k * w k = lin h (fun k => w k.castSucc) (w (Fin.last n)) := by
  rw [Fin.sum_univ_castSucc, hl, one_mul]
  simp only [hg]
  rfl

/-- The first hidden layer at unit `b`: 784 inputs, then `max · 0`. -/
def act0 (x : Fin 784 → EReal) (w0 : Fin 784 → Fin 128 → EReal) (b0 : Fin 128 → EReal) (b : Fin 128) : EReal :=
  max (lin x (fun a => w0 a b) (b0 b)) 0

/-- The second hidden layer at unit `c`: the 128 first-layer units as inputs, then `max · 0`. -/
def act1 (x : Fin 784 → EReal) (w0 : Fin 784 → Fin 128 → EReal) (b0 : Fin 128 → EReal)
    (w1 : Fin 128 → Fin 64 → EReal) (b1 : Fin 64 → EReal) (c : Fin 64) : EReal :=
  max (lin (act0 x w0 b0) (fun b => w1 b c) (b1 c)) 0

/-- One entry of the output layer: the 64 second-layer units against one column `w2` of the last weight matrix and its
    bias entry `b2`; no `max`. -/
def outEntry (x : Fin 784 → EReal) (w0 : Fin 784 → Fin 128 → EReal) (b0 : Fin 128 → EReal)
    (w1 : Fin 128 → Fin 64 → EReal) (b1 : Fin 64 → EReal) (w2 : Fin 64 → EReal) (b2 : EReal) : EReal :=
  lin (act1 x w0 b0 w1 b1) w2 b2

/-- The result array, 65536 rows of 10 entries, as a function of the four argument arrays: the input `X` and the three
    weight matrices, each of which carries its layer's bias as its last row. -/
def result (X : FVec Ideal ⟨2, ![65536, 784]⟩ .f32) (W0 : FVec Ideal ⟨2, ![785, 128]⟩ .f32)
    (W1 : FVec Ideal ⟨2, ![129, 64]⟩ .f32) (W2 : FVec Ideal ⟨2, ![65, 10]⟩ .f32) :
    FVec Ideal ⟨2, ![65536, 10]⟩ .f32 := fun i =>
  outEntry (fun a => X (ix2 (i 0) a))
    (fun a b => W0 (ix2 a.castSucc b)) (fun b => W0 (ix2 (Fin.last 784) b))
    (fun b c => W1 (ix2 b.castSucc c)) (fun c => W1 (ix2 (Fin.last 128) c))
    (fun c => W2 (ix2 c.castSucc (i 1))) (W2 (ix2 (Fin.last 64) (i 1)))

/-- The float pattern of `1.0` denotes the real number one. -/
theorem ofBits_one : Ideal.ofBits .f32 0x3F800000#32 = 1 := by
  simp [Ideal.ofBits, Ideal.ieee, -EReal.coe_mul]
  norm_num

end Cert.Mlp

end
-- ==== Proof.Body.lean ====
/-
  What the kernel body stores, read at one entry.

  The body loads a block of 4096 input rows and the six weight and bias arrays whole, and stores one 4096 × 128 value: three
  dense layers one after the other, each a matrix product accumulated into a zero matrix plus the layer's bias row
  repeated over the rows, the first two followed by the entrywise maximum with zero. The changes of float format in
  between are the identity on the extended reals. Entry `(p, q)` of the stored value is therefore the perceptron's
  output entry for row `p` of the input block, column `q` of the last weight array and entry `q` of the last bias row.
-/
import proofs.«161041_j10574209483163_2_alg».proof.Proof.Gen.KernelIdeal.Skeleton
import proofs.«161041_j10574209483163_2_alg».proof.Proof.LibPlainProduct
import proofs.«161041_j10574209483163_2_alg».proof.Proof.Spec
import Idealize.ShloMosaic.Lib.Pipeline.Value
import Idealize.ShloMosaic.Lib.ValueLayout

noncomputable section

namespace Cert.Mlp.Body

open Idealize.ShloMosaic Idealize.ShloMosaic.ValueIdx Cert.KernelIdeal Cert.KernelIdeal.Gen

/-- A product into a zero matrix plus a bias row repeated over the rows, at entry `(a, b)`: the dense-layer entry of
    row `a` of the left matrix against column `b` of the right one and entry `b` of the bias row. -/
theorem dense_apply {m k n : ℕ} {φ₁ φ₂ : FTy} (prec : Option ContractPrecision)
    (A : FVec Ideal ⟨2, ![m, k]⟩ φ₁) (B : FVec Ideal ⟨2, ![k, n]⟩ φ₂) (bias : FVec Ideal ⟨2, ![1, n]⟩ .f32)
    (hb : (⟨2, ![1, n]⟩ : Shape).Broadcasts ⟨2, ![m, n]⟩) (a : Fin m) (b : Fin n) :
    addf (matmul (DotDims.plain m k n) prec A B (constant ⟨2, ![m, n]⟩ .f32 0x00000000#32))
        (broadcastTo ⟨2, ![m, n]⟩ bias hb) (ix2 a b)
      = lin (fun c => A (ix2 a c)) (fun c => B (ix2 c b)) (bias (ix2 (0 : Fin 1) b)) := by
  rw [addf_apply, Cert.LibPlainProduct.matmul_plain_zero_apply, broadcastTo_1b_ab_apply]
  rfl

/-- The same followed by the maximum with the zero literal and a change of float format. -/
theorem dense_relu_apply {m k n : ℕ} {φ₁ φ₂ : FTy} (prec : Option ContractPrecision)
    (A : FVec Ideal ⟨2, ![m, k]⟩ φ₁) (B : FVec Ideal ⟨2, ![k, n]⟩ φ₂) (bias : FVec Ideal ⟨2, ![1, n]⟩ .f32)
    (hb : (⟨2, ![1, n]⟩ : Shape).Broadcasts ⟨2, ![m, n]⟩) (ht : FTy.bits .bf16 < FTy.bits .f32) (a : Fin m) (b : Fin n) :
    (truncf .bf16 (maximumf (addf (matmul (DotDims.plain m k n) prec A B (constant ⟨2, ![m, n]⟩ .f32 0x00000000#32))
        (broadcastTo ⟨2, ![m, n]⟩ bias hb)) (broadcast ⟨2, ![m, n]⟩ (Scalar.ofBits (F := Ideal) .f32 0x00000000#32))) ht
        : FVec Ideal ⟨2, ![m, n]⟩ .bf16) (ix2 a b)
      = max (lin (fun c => A (ix2 a c)) (fun c => B (ix2 c b)) (bias (ix2 (0 : Fin 1) b))) 0 := by
  rw [truncf_apply, maximumf_apply, dense_apply, broadcast_apply]
  congr 1
  exact Ideal.ofBits_zero_f32

theorem dot0_plain : dot_S4096x784_S784x128_S4096x128_1_0_0_1_n_n = DotDims.plain 4096 784 128 := rfl
theorem dot1_plain : dot_S4096x128_S128x64_S4096x64_1_0_0_1_n_n = DotDims.plain 4096 128 64 := rfl
theorem dot2_plain : dot_S4096x64_S64x128_S4096x128_1_0_0_1_n_n = DotDims.plain 4096 64 128 := rfl

/-- The stored value at entry `(p, q)`. -/
theorem stored_apply (x0 : Vec Ideal S4096x784 .f32) (x1 : Vec Ideal S784x128 .bf16) (x2 : Vec Ideal S1x128 .f32)
    (x3 : Vec Ideal S128x64 .bf16) (x4 : Vec Ideal S1x64 .f32) (x5 : Vec Ideal S64x128 .bf16) (x6 : Vec Ideal S1x128 .f32)
    (p : Fin 4096) (q : Fin 128) :
    k0_pay1 (F := Ideal) x0 x1 x2 x3 x4 x5 x6 (ix2 p q)
      = outEntry (fun a => x0 (ix2 p a)) (fun a b => x1 (ix2 a b)) (fun b => x2 (ix2 (0 : Fin 1) b))
          (fun b c => x3 (ix2 b c)) (fun c => x4 (ix2 (0 : Fin 1) c)) (fun c => x5 (ix2 c q)) (x6 (ix2 (0 : Fin 1) q)) := by
  unfold k0_pay1
  simp only [shapeCast_self, dot0_plain, dot1_plain, dot2_plain]
  refine (dense_apply none _ _ _ _ p q).trans ?_
  unfold outEntry
  refine congrArg (fun h => lin h _ _) (funext fun c => ?_)
  refine (dense_relu_apply none _ _ _ _ _ p c).trans ?_
  unfold act1
  refine congrArg (fun h => max (lin h _ _) 0) (funext fun b => ?_)
  refine (dense_relu_apply none _ _ _ _ _ p b).trans ?_
  rfl

/-- Row `r`, column `q` of the 65536 × 128 array the kernel fills, as a function of the seven arrays it reads: the
    input, and per layer a weight array and a one-row bias array (the last layer's are 128 columns wide). -/
def wideAt (A0 : FVec Ideal ⟨2, ![65536, 784]⟩ .f32) (A1 : FVec Ideal ⟨2, ![784, 128]⟩ .bf16)
    (A2 : FVec Ideal ⟨2, ![1, 128]⟩ .f32) (A3 : FVec Ideal ⟨2, ![128, 64]⟩ .bf16) (A4 : FVec Ideal ⟨2, ![1, 64]⟩ .f32)
    (A5 : FVec Ideal ⟨2, ![64, 128]⟩ .bf16) (A6 : FVec Ideal ⟨2, ![1, 128]⟩ .f32) (r : Fin 65536) (q : Fin 128) : EReal :=
  outEntry (fun a => A0 (ix2 r a)) (fun a b => A1 (ix2 a b)) (fun b => A2 (ix2 (0 : Fin 1) b))
    (fun b c => A3 (ix2 b c)) (fun c => A4 (ix2 (0 : Fin 1) c)) (fun c => A5 (ix2 c q)) (A6 (ix2 (0 : Fin 1) q))

/-- If the loaded input block's row `p` is row `r` of the input array and the other six loaded values are the six
    arrays, the stored value's entry `(p, q)` is the filled array's entry `(r, q)`. -/
theorem stored_eq_wideAt (A0 : FVec Ideal ⟨2, ![65536, 784]⟩ .f32) (A1 : FVec Ideal ⟨2, ![784, 128]⟩ .bf16)
    (A2 : FVec Ideal ⟨2, ![1, 128]⟩ .f32) (A3 : FVec Ideal ⟨2, ![128, 64]⟩ .bf16) (A4 : FVec Ideal ⟨2, ![1, 64]⟩ .f32)
    (A5 : FVec Ideal ⟨2, ![64, 128]⟩ .bf16) (A6 : FVec Ideal ⟨2, ![1, 128]⟩ .f32)
    (x0 : Vec Ideal S4096x784 .f32) (x1 : Vec Ideal S784x128 .bf16) (x2 : Vec Ideal S1x128 .f32)
    (x3 : Vec Ideal S128x64 .bf16) (x4 : Vec Ideal S1x64 .f32) (x5 : Vec Ideal S64x128 .bf16) (x6 : Vec Ideal S1x128 .f32)
    (p : Fin 4096) (q : Fin 128) (r : Fin 65536)
    (h0 : ∀ a : Fin 784, x0 (ix2 p a) = A0 (ix2 r a))
    (h1 : ∀ (a : Fin 784) (b : Fin 128), x1 (ix2 a b) = A1 (ix2 a b))
    (h2 : ∀ b : Fin 128, x2 (ix2 (0 : Fin 1) b) = A2 (ix2 (0 : Fin 1) b))
    (h3 : ∀ (b : Fin 128) (c : Fin 64), x3 (ix2 b c) = A3 (ix2 b c))
    (h4 : ∀ c : Fin 64, x4 (ix2 (0 : Fin 1) c) = A4 (ix2 (0 : Fin 1) c))
    (h5 : ∀ (c : Fin 64) (b : Fin 128), x5 (ix2 c b) = A5 (ix2 c b))
    (h6 : ∀ b : Fin 128, x6 (ix2 (0 : Fin 1) b) = A6 (ix2 (0 : Fin 1) b)) :
    k0_pay1 (F := Ideal) x0 x1 x2 x3 x4 x5 x6 (ix2 p q) = wideAt A0 A1 A2 A3 A4 A5 A6 r q := by
  rw [stored_apply]
  unfold wideAt
  simp only [h0, h1, h2, h3, h4, h5, h6]

end Cert.Mlp.Body

end
-- ==== Proof.Blocks.lean ====
/-
  From what each grid point writes back to the whole array the kernel fills.

  The grid has 16 points. At point `t` the input window holds rows `4096 t … 4096 t + 4095` of the input array (all 784
  columns), the six weight and bias windows hold their arrays whole at every point, and the output window is rows
  `4096 t … 4096 t + 4095` of the 65536 × 128 output array (all 128 columns). Row `p` of the value stored at point `t`
  is therefore the perceptron's output for row `4096 t + p` of the input: each written-back block is a block of ONE
  function of the array index, the sixteen blocks tile the output array (row `r` lies in the block of point `r / 4096`),
  and so the array ends holding that function.
-/
import proofs.«161041_j10574209483163_2_alg».proof.Proof.Gen.KernelIdeal.Frame
import proofs.«161041_j10574209483163_2_alg».proof.Proof.Body
import Idealize.ShloMosaic.Lib.Pipeline.Value

noncomputable section

namespace Cert.Mlp.Blocks

open Idealize.ShloMosaic Idealize.ShloMosaic.TcCoe Idealize.ShloMosaic.ValueIdx Idealize.SL.Sem
open Idealize.ShloMosaic.Pipeline (Dat)
open Cert.KernelIdeal Cert.KernelIdeal.Gen Cert.Mlp.Body

variable (m : (ℓ : Loc nD τ sig) → Buf (Elt Ideal) ℓ)

theorem hz : (![0, 0] : Fin 2 → Nat) = fun _ => 0 := funext fun a => by fin_cases a <;> rfl

/-! ## The printed index maps, decided over the sixteen points -/

theorem idx_in : ∀ t : Fin cfg0.N, win0_0.index t (0 : Fin 2) = t.val ∧ win0_0.index t (1 : Fin 2) = 0 :=
  (by decide +kernel : ∀ t : Fin grid0.N, _)
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_out : ∀ t : Fin cfg0.N, win0_7.index t (0 : Fin 2) = t.val ∧ win0_7.index t (1 : Fin 2) = 0 :=
  (by decide +kernel : ∀ t : Fin grid0.N, _)

/-- Row `p` of point `t`'s block is row `4096 t + p` of the array. -/
def rowOf (t : Fin cfg0.N) (p : Fin 4096) : Fin 65536 :=
  ⟨4096 * t.val + p.val, by have := t.isLt; have hN : cfg0.N = 16 := N_0; have := p.isLt; omega⟩

/-! ## Each window's block at a point, read at an entry -/

theorem iblk0_apply (c : Dev nD) (t : Fin cfg0.N) (p : Fin 4096) (a : Fin 784) :
    (iblk m c 0 t : Vec Ideal S4096x784 .f32) (ix2 p a) = (V m c main_arg0 : S65536x784.Idx → EReal) (ix2 (rowOf t p) a) := by
  obtain ⟨e0, e1⟩ := idx_in t
  unfold iblk
  rw [View.read_apply]
  show (V m c main_arg0 : S65536x784.Idx → EReal) _ = _
  refine congrArg (V m c main_arg0 : S65536x784.Idx → EReal) (funext fun ax => Fin.ext ?_)
  match ax with
  | ⟨0, _⟩ => show win0_0.index t (0 : Fin 2) * 4096 + 1 * p.val = 4096 * t.val + p.val; rw [e0]; omega
  | ⟨1, _⟩ => show win0_0.index t (1 : Fin 2) * 784 + 1 * a.val = a.val; rw [e1]; omega

theorem iblk1_apply (c : Dev nD) (t : Fin cfg0.N) (a : Fin 784) (b : Fin 128) :
    (iblk m c 1 t : Vec Ideal S784x128 .bf16) (ix2 a b) = (V m c main_v8 : S784x128.Idx → EReal) (ix2 a b) := by
  obtain ⟨e0, e1⟩ := idx_w1 t
  unfold iblk
  rw [View.read_apply]
  show (V m c main_v8 : S784x128.Idx → EReal) _ = _
  refine congrArg (V m c main_v8 : S784x128.Idx → EReal) (funext fun ax => Fin.ext ?_)
  match ax with
  | ⟨0, _⟩ => show win0_1.index t (0 : Fin 2) * 784 + 1 * a.val = a.val; rw [e0]; omega
  | ⟨1, _⟩ => show win0_1.index t (1 : Fin 2) * 128 + 1 * b.val = b.val; rw [e1]; omega

theorem iblk2_apply (c : Dev nD) (t : Fin cfg0.N) (b : Fin 128) :
    (iblk m c 2 t : Vec Ideal S1x128 .f32) (ix2 (0 : Fin 1) b) = (V m c main_v1 : S1x128.Idx → EReal) (ix2 (0 : Fin 1) b) := by
  obtain ⟨e0, e1⟩ := idx_w2 t
  unfold iblk
  rw [View.read_apply]
  show (V m c main_v1 : S1x128.Idx → EReal) _ = _
  refine congrArg (V m c main_v1 : S1x128.Idx → EReal) (funext fun ax => Fin.ext ?_)
  match ax with
  | ⟨0, _⟩ => show win0_2.index t (0 : Fin 2) * 1 + 1 * 0 = 0; rw [e0]
  | ⟨1, _⟩ => show win0_2.index t (1 : Fin 2) * 128 + 1 * b.val = b.val; rw [e1]; omega

theorem iblk3_apply (c : Dev nD) (t : Fin cfg0.N) (b : Fin 128) (k : Fin 64) :
    (iblk m c 3 t : Vec Ideal S128x64 .bf16) (ix2 b k) = (V m c main_v9 : S128x64.Idx → EReal) (ix2 b k) := by
  obtain ⟨e0, e1⟩ := idx_w3 t
  unfold iblk
  rw [View.read_apply]
  show (V m c main_v9 : S128x64.Idx → EReal) _ = _
  refine congrArg (V m c main_v9 : S128x64.Idx → EReal) (funext fun ax => Fin.ext ?_)
  match ax with
  | ⟨0, _⟩ => show win0_3.index t (0 : Fin 2) * 128 + 1 * b.val = b.val; rw [e0]; omega
  | ⟨1, _⟩ => show win0_3.index t (1 : Fin 2) * 64 + 1 * k.val = k.val; rw [e1]; omega

theorem iblk4_apply (c : Dev nD) (t : Fin cfg0.N) (k : Fin 64) :
    (iblk m c 4 t : Vec Ideal S1x64 .f32) (ix2 (0 : Fin 1) k) = (V m c main_v3 : S1x64.Idx → EReal) (ix2 (0 : Fin 1) k) := by
  obtain ⟨e0, e1⟩ := idx_w4 t
  unfold iblk
  rw [View.read_apply]
  show (V m c main_v3 : S1x64.Idx → EReal) _ = _
  refine congrArg (V m c main_v3 : S1x64.Idx → EReal) (funext fun ax => Fin.ext ?_)
  match ax with
  | ⟨0, _⟩ => show win0_4.index t (0 : Fin 2) * 1 + 1 * 0 = 0; rw [e0]
  | ⟨1, _⟩ => show win0_4.index t (1 : Fin 2) * 64 + 1 * k.val = k.val; rw [e1]; omega

theorem iblk5_apply (c : Dev nD) (t : Fin cfg0.N) (k : Fin 64) (b : Fin 128) :
    (iblk m c 5 t : Vec Ideal S64x128 .bf16) (ix2 k b) = (V m c main_v10 : S64x128.Idx → EReal) (ix2 k b) := by
  obtain ⟨e0, e1⟩ := idx_w5 t
  unfold iblk
  rw [View.read_apply]
  show (V m c main_v10 : S64x128.Idx → EReal) _ = _
  refine congrArg (V m c main_v10 : S64x128.Idx → EReal) (funext fun ax => Fin.ext ?_)
  match ax with
  | ⟨0, _⟩ => show win0_5.index t (0 : Fin 2) * 64 + 1 * k.val = k.val; rw [e0]; omega
  | ⟨1, _⟩ => show win0_5.index t (1 : Fin 2) * 128 + 1 * b.val = b.val; rw [e1]; omega

theorem iblk6_apply (c : Dev nD) (t : Fin cfg0.N) (b : Fin 128) :
    (iblk m c 6 t : Vec Ideal S1x128 .f32) (ix2 (0 : Fin 1) b) = (V m c main_v7 : S1x128.Idx → EReal) (ix2 (0 : Fin 1) b) := by
  obtain ⟨e0, e1⟩ := idx_w6 t
  unfold iblk
  rw [View.read_apply]
  show (V m c main_v7 : S1x128.Idx → EReal) _ = _
  refine congrArg (V m c main_v7 : S1x128.Idx → EReal) (funext fun ax => Fin.ext ?_)
  match ax with
  | ⟨0, _⟩ => show win0_6.index t (0 : Fin 2) * 1 + 1 * 0 = 0; rw [e0]
  | ⟨1, _⟩ => show win0_6.index t (1 : Fin 2) * 128 + 1 * b.val = b.val; rw [e1]; omega

/-! ## The array the kernel fills -/

/-- The 65536 × 128 output array as one function of the seven arrays as the kernel finds them. -/
def wide (c : Dev nD) : Buf (Elt Ideal) ((c : Thread nD τ).loc main_v11) := fun i =>
  wideAt (V m c main_arg0) (V m c main_v8) (V m c main_v1) (V m c main_v9) (V m c main_v3) (V m c main_v10) (V m c main_v7)
    (i 0) (i 1)

/-- Entry `(p, q)` of point `t`'s output block sits at row `4096 t + p`, column `q` of the output array. -/
theorem emb_out (t : Fin cfg0.N) (p : Fin 4096) (q : Fin 128) :
    ((cfg0.win 7).blk t).view.emb (ix2 p q) = (ix2 (rowOf t p) q : S65536x128.Idx) := by
  obtain ⟨e0, e1⟩ := idx_out t
  funext ax; apply Fin.ext
  match ax with
  | ⟨0, _⟩ => show win0_7.index t (0 : Fin 2) * 4096 + 1 * p.val = 4096 * t.val + p.val; rw [e0]; omega
  | ⟨1, _⟩ => show win0_7.index t (1 : Fin 2) * 128 + 1 * q.val = q.val; rw [e1]; omega

/-- What point `t` writes back is block `t` of `wide`. -/
theorem flushed_eq (c : Dev nD) (t : Fin cfg0.N) :
    (dats m 0 c).flushed 7 t = ((cfg0.win 7).blk t).view.read (Elt Ideal) (wide m c) := by
  show (cfg0.win 7).cut (grid0.coords t) ((dats m 0 c).after 7 t) = _
  rw [after0_7]
  unfold out0_7
  rw [View.canon_unit_zero hz]
  simp only [View.ld_unit_zero (S := S4096x784) hz, View.ld_unit_zero (S := S784x128) hz, View.ld_unit_zero (S := S1x128) hz,
    View.ld_unit_zero (S := S128x64) hz, View.ld_unit_zero (S := S1x64) hz, View.ld_unit_zero (S := S64x128) hz]
  funext j
  obtain ⟨p, q, rfl⟩ : ∃ (p : Fin 4096) (q : Fin 128), j = ix2 p q := ⟨j 0, j 1, eq_ix2 j⟩
  rw [View.read_apply, emb_out]
  show k0_pay1 (F := Ideal) (iblk m c 0 t) (iblk m c 1 t) (iblk m c 2 t) (iblk m c 3 t) (iblk m c 4 t) (iblk m c 5 t)
      (iblk m c 6 t) (ix2 p q)
    = wideAt (V m c main_arg0) (V m c main_v8) (V m c main_v1) (V m c main_v9) (V m c main_v3) (V m c main_v10)
      (V m c main_v7) (rowOf t p) q
  exact stored_eq_wideAt (V m c main_arg0) (V m c main_v8) (V m c main_v1) (V m c main_v9) (V m c main_v3) (V m c main_v10)
    (V m c main_v7) (iblk m c 0 t) (iblk m c 1 t) (iblk m c 2 t) (iblk m c 3 t) (iblk m c 4 t) (iblk m c 5 t) (iblk m c 6 t)
    p q (rowOf t p) (iblk0_apply m c t p) (iblk1_apply m c t) (iblk2_apply m c t) (iblk3_apply m c t) (iblk4_apply m c t)
    (iblk5_apply m c t) (iblk6_apply m c t)

/-- An index of the output array is in point `t`'s block iff each coordinate is in the block's range on its axis. -/
theorem mem_blk (t : Fin cfg0.N) (i : S65536x128.Idx) :
    i ∈ ((cfg0.win 7).blk t).view.set ↔ ∀ a : Fin 2, win0_7.index t a * S4096x128.size a ≤ (i a).val
      ∧ (i a).val < win0_7.index t a * S4096x128.size a + S4096x128.size a := by
  show i ∈ ((View.whole main_v11).slice (win0_7.rect t)).set ↔ _
  rw [View.set_slice_whole, Rect.mem_set_unit]
  exact Iff.rfl

/-- Every index of the output array lies in the block of the point its row selects. -/
theorem cover (i : S65536x128.Idx) : ∃ t : Fin cfg0.N, (cfg0.win 7).flush t = true ∧ i ∈ ((cfg0.win 7).blk t).view.set := by
  have hN : cfg0.N = 16 := N_0
  have hi0 : (i 0).val < 65536 := (i 0).isLt
  have hi1 : (i 1).val < 128 := (i 1).isLt
  let t : Fin cfg0.N := ⟨(i 0).val / 4096, by omega⟩
  obtain ⟨e0, e1⟩ := idx_out t
  have ht : t.val = (i 0).val / 4096 := rfl
  refine ⟨t, flush0_7 t, ?_⟩
  rw [mem_blk]
  intro a
  match a with
  | ⟨0, _⟩ => show win0_7.index t (0 : Fin 2) * 4096 ≤ (i 0).val ∧ (i 0).val < win0_7.index t (0 : Fin 2) * 4096 + 4096; rw [e0, ht]; omega
  | ⟨1, _⟩ => show win0_7.index t (1 : Fin 2) * 128 ≤ (i 1).val ∧ (i 1).val < win0_7.index t (1 : Fin 2) * 128 + 128; rw [e1]; omega

/-- The output array after the run is `wide`. -/
theorem final (c : Dev nD) : (dats m 0 c).arrAt 7 cfg0.N = wide m c :=
  (dats m 0 c).arrAt_eq_of_cover 7 (wide m c) (fun t _ => flushed_eq m c t) cover

end Cert.Mlp.Blocks

end
-- ==== Proof.Entry.lean ====
/-
  What the arrays read by the kernel region hold when the region is entered, one entry at a time.

  Before the region the program cuts each weight matrix into its weight rows and its last row (the bias), extends the
  last layer's two pieces from 10 to 128 columns by padding on the right, and narrows the float type of the three weight
  pieces. Over the extended reals narrowing is the identity; a cut along the rows starting at row `o` reads, at row `j`,
  the source at row `o + j`; and a matrix padded on the right reads, at a column of the original, the original there.
  So each of these arrays, read at an index whose column lies inside the original, is an entry of one of the program's
  argument arrays. The padding value is never needed: only the first 10 columns of the padded arrays are read here.
-/
import proofs.«161041_j10574209483163_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost

noncomputable section

namespace Cert.Mlp.Entry

open Idealize.ShloMosaic Idealize.ShloMosaic.ValueIdx Idealize.SL.Sem Cert.KernelIdeal Cert.KernelIdeal.Gen
open Idealize.ShloMosaic.StableHlo
open Idealize.ShloMosaic.TcCoe

/-! ## The three layout steps read at an index -/

section Steps
variable {α : Type}

/-- The rows of a matrix from row `o` on, with the float type narrowed: over the extended reals the narrowing does nothing,
    so entry `(j, e)` is the source's entry `(k, e)` with `k = o + j`. -/
theorem truncf_rows_apply {n0 n1 r : Nat} (o : Nat) (X : FVec Ideal ⟨2, ![n0, n1]⟩ .f32)
    (h : (⟨2, ![n0, n1]⟩ : Shape).Slices ![o, 0] ⟨2, ![r, n1]⟩) (hb : FTy.bf16.bits < FTy.f32.bits)
    (j : Fin r) (e : Fin n1) (k : Fin n0) (hk : k.val = o + j.val) :
    truncf .bf16 (extractStridedSlice ⟨2, ![r, n1]⟩ ![o, 0] X h) hb (ix2 j e) = X (ix2 k e) :=
  slice2_axis0_apply o X h j e k hk

/-- A matrix extended by `p` columns on the right (nothing added in front, above, below or between entries) reads, at a
    column `j'` that is a column `j` of the original, the original's entry. -/
theorem pad_right_apply {n0 n1 N p : Nat} (X : (⟨2, ![n0, n1]⟩ : Shape).Idx → α) {u : Shape} (v : u.Idx → α)
    (h : (⟨2, ![n0, n1]⟩ : Shape).Pads (![0, 0] : Fin 2 → Nat) ![0, p] ![0, 0] ⟨2, ![n0, N]⟩) (hu : 0 < u.numel)
    (a : Fin n0) (j : Fin n1) (j' : Fin N) (hj : j'.val = j.val) :
    pad ⟨2, ![n0, N]⟩ ![0, 0] ![0, p] ![0, 0] X v h hu (ix2 a j') = X (ix2 a j) :=
  pad_apply_of_inside _ _ _ X v h hu _ (ix2 a j) (fun ax => by
    match ax with
    | ⟨0, _⟩ => show a.val = 0 + a.val * (0 + 1); omega
    | ⟨1, _⟩ => show j'.val = 0 + j.val * (0 + 1); omega)

/-- The rows of a matrix from row `o` on, then extended by `p` columns on the right: at row `i` and a column of the
    original it is the source's entry in row `o + i`. -/
theorem pad_rows_apply {n0 n1 r N p : Nat} (o : Nat) (X : (⟨2, ![n0, n1]⟩ : Shape).Idx → α) {u : Shape} (v : u.Idx → α)
    (hs : (⟨2, ![n0, n1]⟩ : Shape).Slices ![o, 0] ⟨2, ![r, n1]⟩)
    (h : (⟨2, ![r, n1]⟩ : Shape).Pads (![0, 0] : Fin 2 → Nat) ![0, p] ![0, 0] ⟨2, ![r, N]⟩) (hu : 0 < u.numel)
    (i : Fin r) (j : Fin n1) (j' : Fin N) (hj : j'.val = j.val) (k : Fin n0) (hk : k.val = o + i.val) :
    pad ⟨2, ![r, N]⟩ ![0, 0] ![0, p] ![0, 0] (extractStridedSlice ⟨2, ![r, n1]⟩ ![o, 0] X hs) v h hu (ix2 i j') = X (ix2 k j) :=
  (pad_right_apply _ v h hu i j j' hj).trans (slice2_axis0_apply o X hs i j k hk)

end Steps

/-! ## The arrays at the region's entry, whole -/

section Entry
variable (m : (ℓ : Loc nD τ sig) → Buf (Elt Ideal) ℓ) (c : Dev nD)

/-- The first layer's weights: rows 0 to 783 of the first weight matrix, narrowed. -/
theorem V_v8_eq : (V m c main_v8 : S784x128.Idx → EReal)
    = truncf (F := Ideal) .bf16 (extractStridedSlice S784x128 ![0, 0] (m ((c : Thread nD τ).loc main_arg1) : FVec Ideal S785x128 .f32) slices_S785x128_S784x128_0_0) bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results <;> rfl

/-- The first layer's bias: row 784 of the first weight matrix. -/
theorem V_v1_eq : (V m c main_v1 : S1x128.Idx → EReal)
    = extractStridedSlice S1x128 ![784, 0] (m ((c : Thread nD τ).loc main_arg1) : FVec Ideal S785x128 .f32) slices_S785x128_S1x128_784_0 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results <;> rfl

/-- The second layer's weights: rows 0 to 127 of the second weight matrix, narrowed. -/
theorem V_v9_eq : (V m c main_v9 : S128x64.Idx → EReal)
    = truncf (F := Ideal) .bf16 (extractStridedSlice S128x64 ![0, 0] (m ((c : Thread nD τ).loc main_arg2) : FVec Ideal S129x64 .f32) slices_S129x64_S128x64_0_0) bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results <;> rfl

/-- The second layer's bias: row 128 of the second weight matrix. -/
theorem V_v3_eq : (V m c main_v3 : S1x64.Idx → EReal)
    = extractStridedSlice S1x64 ![128, 0] (m ((c : Thread nD τ).loc main_arg2) : FVec Ideal S129x64 .f32) slices_S129x64_S1x64_128_0 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results <;> rfl

/-- The last layer's weights: rows 0 to 63 of the third weight matrix, extended to 128 columns, narrowed. -/
theorem V_v10_eq : (V m c main_v10 : S64x128.Idx → EReal)
    = truncf (F := Ideal) .bf16 (pad S64x128 ![0, 0] ![0, 118] ![0, 0]
        (extractStridedSlice S64x10 ![0, 0] (m ((c : Thread nD τ).loc main_arg3) : FVec Ideal S65x10 .f32) slices_S65x10_S64x10_0_0)
        (sitofp .f32 (constantI S_ 32 0#32) : FVec Ideal S_ .f32) pads_S64x10_S64x128_000_01180 h_S_) bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results <;> rfl

/-- The last layer's bias: row 64 of the third weight matrix, extended to 128 columns. -/
theorem V_v7_eq : (V m c main_v7 : S1x128.Idx → EReal)
    = pad S1x128 ![0, 0] ![0, 118] ![0, 0]
        (extractStridedSlice S1x10 ![64, 0] (m ((c : Thread nD τ).loc main_arg3) : FVec Ideal S65x10 .f32) slices_S65x10_S1x10_64_0)
        (sitofp .f32 (constantI S_ 32 0#32) : FVec Ideal S_ .f32) pads_S1x10_S1x128_000_01180 h_S_ := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results <;> rfl

/-! ## The arrays at the region's entry, read at an index -/

/-- The first layer's weight `(a, b)` is the first weight matrix's entry in row `a`. -/
theorem V_v8 (a : Fin 784) (b : Fin 128) :
    (V m c main_v8 : S784x128.Idx → EReal) (ix2 a b)
      = (m ((c : Thread nD τ).loc main_arg1) : S785x128.Idx → EReal) (ix2 a.castSucc b) :=
  (congrFun (V_v8_eq m c) (ix2 a b)).trans
    (truncf_rows_apply 0 _ slices_S785x128_S784x128_0_0 bitsLt_bf16_f32 a b a.castSucc (by simp))

/-- The first layer's bias for unit `b` is the first weight matrix's entry in its last row. -/
theorem V_v1 (b : Fin 128) :
    (V m c main_v1 : S1x128.Idx → EReal) (ix2 (0 : Fin 1) b)
      = (m ((c : Thread nD τ).loc main_arg1) : S785x128.Idx → EReal) (ix2 (Fin.last 784) b) :=
  (congrFun (V_v1_eq m c) (ix2 (0 : Fin 1) b)).trans
    (slice2_axis0_apply 784 _ slices_S785x128_S1x128_784_0 (0 : Fin 1) b (Fin.last 784) rfl)

/-- The second layer's weight `(b, k)` is the second weight matrix's entry in row `b`. -/
theorem V_v9 (b : Fin 128) (k : Fin 64) :
    (V m c main_v9 : S128x64.Idx → EReal) (ix2 b k)
      = (m ((c : Thread nD τ).loc main_arg2) : S129x64.Idx → EReal) (ix2 b.castSucc k) :=
  (congrFun (V_v9_eq m c) (ix2 b k)).trans
    (truncf_rows_apply 0 _ slices_S129x64_S128x64_0_0 bitsLt_bf16_f32 b k b.castSucc (by simp))

/-- The second layer's bias for unit `k` is the second weight matrix's entry in its last row. -/
theorem V_v3 (k : Fin 64) :
    (V m c main_v3 : S1x64.Idx → EReal) (ix2 (0 : Fin 1) k)
      = (m ((c : Thread nD τ).loc main_arg2) : S129x64.Idx → EReal) (ix2 (Fin.last 128) k) :=
  (congrFun (V_v3_eq m c) (ix2 (0 : Fin 1) k)).trans
    (slice2_axis0_apply 128 _ slices_S129x64_S1x64_128_0 (0 : Fin 1) k (Fin.last 128) rfl)

/-- The last layer's weight `(k, j)`, for a column `j` below 10 of the extended array, is the third weight matrix's entry
    in row `k`. -/
theorem V_v10 (k : Fin 64) (j : Fin 10) :
    (V m c main_v10 : S64x128.Idx → EReal) (ix2 k (Fin.castLE (by decide) j : Fin 128))
      = (m ((c : Thread nD τ).loc main_arg3) : S65x10.Idx → EReal) (ix2 k.castSucc j) :=
  (congrFun (V_v10_eq m c) (ix2 k (Fin.castLE (by decide) j : Fin 128))).trans
    (pad_rows_apply 0 _ _ slices_S65x10_S64x10_0_0 pads_S64x10_S64x128_000_01180 h_S_ k j _ rfl k.castSucc (by simp))

/-- The last layer's bias for a column `j` below 10 of the extended array is the third weight matrix's entry in its last
    row. -/
theorem V_v7 (j : Fin 10) :
    (V m c main_v7 : S1x128.Idx → EReal) (ix2 (0 : Fin 1) (Fin.castLE (by decide) j : Fin 128))
      = (m ((c : Thread nD τ).loc main_arg3) : S65x10.Idx → EReal) (ix2 (Fin.last 64) j) :=
  (congrFun (V_v7_eq m c) (ix2 (0 : Fin 1) (Fin.castLE (by decide) j : Fin 128))).trans
    (pad_rows_apply 64 _ _ slices_S65x10_S1x10_64_0 pads_S1x10_S1x128_000_01180 h_S_ (0 : Fin 1) j _ rfl (Fin.last 64) rfl)

end Entry

end Cert.Mlp.Entry

end
-- ==== Proof.Tail.lean ====
/-
  The program ends with one host operation after the kernel region: it keeps the first ten columns of the kernel's output
  array. So the final result, on every core, is that slice of what the region leaves in the output array, and the four
  argument arrays end as they were launched.
-/
import proofs.«161041_j10574209483163_2_alg».proof.Proof.Gen.KernelIdeal.Frame
import Idealize.ShloMosaic.Lib.Pipeline.Value
import Idealize.ShloMosaic.Lib.StableHlo.Run
import Idealize.ShloMosaic.Lib.ValueIdx

noncomputable section

namespace Cert.Mlp.Tail

section

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- What the one operation after the region leaves in the result buffer: the slice, starting at `(0, 0)`, of the region's
    output array. The operation reads the output array's buffer, which is the last of the region's arrays, so it sees
    what the region leaves there and not what the buffer held when the region was entered. -/
theorem tail_read (c : Dev nD) :
    Pipeline.afterTail₀ cfgs (dats m) 0 (V0 m) [hostOps1] c main_v12
      = extractStridedSlice S65536x10 ![0, 0] ((dats m 0 c).arrAt 7 cfg0.N : S65536x128.Idx → EReal) slices_S65536x128_S65536x10_0_0 := by
  unfold Pipeline.afterTail₀
  show StableHlo.after hostOps1 _ (Proc.devRef .tc main_v12) = _
  after_results
  exact congrArg (fun x => extractStridedSlice S65536x10 ![0, 0] x slices_S65536x128_S65536x10_0_0)
    (Pipeline.withArrays_arr spec0 launch0.win.arr_inj c _ _ 7)

/-- Every run of the whole program ends, on every core, with the result buffer at that slice and the four argument arrays
    as launched: the result buffer is none of the region's arrays, so it holds what the operation after the region wrote;
    the first argument is an array of the region that is only read; the other three are touched by nothing. -/
theorem run_tail : θ_run defs (onTc (τ := τ) (main (F := Ideal))) ⟨m, fun _ => 0, ρ⟩ fun r => ∀ c : Dev nD,
    r.2.mem ((c.tc : Thread nD τ).loc main_v12)
        = extractStridedSlice S65536x10 ![0, 0] ((dats m 0 c).arrAt 7 cfg0.N : S65536x128.Idx → EReal) slices_S65536x128_S65536x10_0_0
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c =>
    ⟨((h c).2 main_v12 (Pipeline.mem_restRefs_of main_v12 (by decide) (by decide))).trans (tail_read m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end

end Cert.Mlp.Tail

end
-- ==== Proof.KernelRun.lean ====
/-
  The kernel program's run, read: its result array is the perceptron's output.

  The array the kernel fills has 128 columns; the program returns its first ten. Column `j < 10` of the widened last
  weight array is column `j` of the last weight matrix's first 64 rows, and entry `j` of the widened bias row is entry `j`
  of that matrix's last row (the 118 columns added on the right are never read back). The first two layers' weight
  arrays are the first rows of their matrices and their bias rows the last rows. So row `r`, column `j` of what the
  program returns is the perceptron's output entry for row `r` of the input against the three matrices.
-/
import proofs.«161041_j10574209483163_2_alg».proof.Proof.Blocks
import proofs.«161041_j10574209483163_2_alg».proof.Proof.Entry
import proofs.«161041_j10574209483163_2_alg».proof.Proof.Tail

noncomputable section

namespace Cert.Mlp.KernelRun

open Idealize.ShloMosaic Idealize.ShloMosaic.TcCoe Idealize.ShloMosaic.ValueIdx Idealize.SL.Sem
open Cert.KernelIdeal Cert.KernelIdeal.Gen Cert.Mlp.Body Cert.Mlp.Blocks

variable (m : (ℓ : Loc nD τ sig) → Buf (Elt Ideal) ℓ) (ρ : Dev nD → PrngReg)

/-- The specification read at row `r`, column `j`. -/
theorem result_apply (X : FVec Ideal ⟨2, ![65536, 784]⟩ .f32) (W0 : FVec Ideal ⟨2, ![785, 128]⟩ .f32)
    (W1 : FVec Ideal ⟨2, ![129, 64]⟩ .f32) (W2 : FVec Ideal ⟨2, ![65, 10]⟩ .f32) (r : Fin 65536) (j : Fin 10) :
    Cert.Mlp.result X W0 W1 W2 (ix2 r j)
      = outEntry (fun a => X (ix2 r a))
          (fun a b => W0 (ix2 a.castSucc b)) (fun b => W0 (ix2 (Fin.last 784) b))
          (fun b c => W1 (ix2 b.castSucc c)) (fun c => W1 (ix2 (Fin.last 128) c))
          (fun c => W2 (ix2 c.castSucc j)) (W2 (ix2 (Fin.last 64) j)) := rfl

/-- An output entry depends on its seven arguments only through their values. -/
theorem outEntry_congr {x x' : Fin 784 → EReal} {w0 w0' : Fin 784 → Fin 128 → EReal} {b0 b0' : Fin 128 → EReal}
    {w1 w1' : Fin 128 → Fin 64 → EReal} {b1 b1' : Fin 64 → EReal} {w2 w2' : Fin 64 → EReal} {b2 b2' : EReal}
    (hx : ∀ a, x a = x' a) (hw0 : ∀ a b, w0 a b = w0' a b) (hb0 : ∀ b, b0 b = b0' b) (hw1 : ∀ b k, w1 b k = w1' b k)
    (hb1 : ∀ k, b1 k = b1' k) (hw2 : ∀ k, w2 k = w2' k) (hb2 : b2 = b2') :
    outEntry x w0 b0 w1 b1 w2 b2 = outEntry x' w0' b0' w1' b1' w2' b2' := by
  obtain rfl : x = x' := funext hx
  obtain rfl : w0 = w0' := funext fun a => funext (hw0 a)
  obtain rfl : b0 = b0' := funext hb0
  obtain rfl : w1 = w1' := funext fun b => funext (hw1 b)
  obtain rfl : b1 = b1' := funext hb1
  obtain rfl : w2 = w2' := funext hw2
  subst hb2
  rfl

/-- The first ten columns of the filled array are the perceptron's output of the four argument arrays. -/
theorem slice_wide (c : Dev nD) :
    extractStridedSlice S65536x10 ![0, 0] (wide m c : S65536x128.Idx → EReal) slices_S65536x128_S65536x10_0_0
      = Cert.Mlp.result (m ((c.tc : Thread nD τ).loc main_arg0)) (m ((c.tc : Thread nD τ).loc main_arg1))
          (m ((c.tc : Thread nD τ).loc main_arg2)) (m ((c.tc : Thread nD τ).loc main_arg3)) := by
  funext i
  obtain ⟨r, j, rfl⟩ : ∃ (r : Fin 65536) (j : Fin 10), i = ix2 r j := ⟨i 0, i 1, eq_ix2 i⟩
  refine (extractStridedSlice_apply _ _ _ (ix2 r j) (ix2 r (Fin.castLE (by decide) j : Fin 128)) (fun a => ?_)).trans ?_
  · match a with
    | ⟨0, _⟩ => show r.val = 0 + r.val; omega
    | ⟨1, _⟩ => show j.val = 0 + j.val; omega
  · show wideAt (V m c main_arg0) (V m c main_v8) (V m c main_v1) (V m c main_v9) (V m c main_v3) (V m c main_v10)
        (V m c main_v7) r (Fin.castLE (by decide) j : Fin 128) = _
    rw [result_apply]
    unfold wideAt
    rw [V_main_arg0]
    exact outEntry_congr (fun _ => rfl) (fun a b => Cert.Mlp.Entry.V_v8 m c a b) (fun b => Cert.Mlp.Entry.V_v1 m c b)
      (fun b k => Cert.Mlp.Entry.V_v9 m c b k) (fun k => Cert.Mlp.Entry.V_v3 m c k) (fun k => Cert.Mlp.Entry.V_v10 m c k j)
      (Cert.Mlp.Entry.V_v7 m c j)

/-- The slice of what the grid leaves in the output array is the perceptron's output. -/
theorem result_eq (c : Dev nD) :
    extractStridedSlice S65536x10 ![0, 0] ((dats m 0 c).arrAt 7 cfg0.N : S65536x128.Idx → EReal) slices_S65536x128_S65536x10_0_0
      = Cert.Mlp.result (m ((c.tc : Thread nD τ).loc main_arg0)) (m ((c.tc : Thread nD τ).loc main_arg1))
          (m ((c.tc : Thread nD τ).loc main_arg2)) (m ((c.tc : Thread nD τ).loc main_arg3)) := by
  rw [final m c]
  exact slice_wide m c

/-- Every weakly fair execution of the kernel program terminates with its result array at the perceptron's output of
    the argument arrays, and the argument arrays unchanged. -/
theorem run : θ_run defs (onTc (τ := τ) (main (F := Ideal))) ⟨m, fun _ => 0, ρ⟩ fun r => ∀ c : Dev nD,
      r.2.mem ((c.tc : Thread nD τ).loc main_v12)
          = Cert.Mlp.result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (result_eq m c), (h c).2⟩) (Cert.Mlp.Tail.run_tail m ρ)

end Cert.Mlp.KernelRun

end
-- ==== Proof.Reference.lean ====
/-
  The reference program computes the three-layer perceptron of `Cert.Mlp.result`.

  The program carries each layer's bias inside the matrix product: before every product it joins a column of ones to the
  right of the layer's input, so that a row `h` of length `n` becomes `(h, 1)` of length `n + 1`, and multiplies by a weight
  matrix with `n + 1` rows whose last row is the bias. An entry of the product is then `∑ k < n + 1, (h, 1) k · w k`, which is
  `(∑ k < n, h k · w k) + w n` (`Cert.Mlp.sum_snoc_one`): the dense-layer entry with bias `w n`.

  For each layer there are three steps. The joined array read left of the seam is the layer's input at the same
  coordinates; read at the seam (its last column) it is the broadcast constant, whose float pattern denotes `1`. The
  product at `(r, c)` is a sum over the joined axis of the joined array at `(r, k)` times the weights at `(k, c)`. The first two
  products are followed by the maximum with a broadcast constant whose float pattern denotes `0`.
-/
import proofs.«161041_j10574209483163_2_alg».proof.Proof.Gen.ReferenceIdeal.Read
import proofs.«161041_j10574209483163_2_alg».proof.Proof.Spec

noncomputable section

namespace Cert.Mlp.Ref

open Idealize.ShloMosaic Idealize.ShloMosaic.ValueIdx Cert.ReferenceIdeal Cert.ReferenceIdeal.Gen Cert.ReferenceIdeal.Read

/-! ## First layer -/

/-- Left of the seam the joined array is its first piece at the same coordinates. -/
theorem v1_left (X : (⟨S65536x784, .f32⟩ : BufTy).Contents (Elt Ideal)) (r : Fin 65536) (k : Fin 784) :
    val_main_v1 (F := Ideal) X (ix2 r (k.castSucc : Fin 785)) = X (ix2 r k) := by
  unfold val_main_v1
  refine concatenate_pair_apply_left (s₁ := S65536x784) (s₂ := S65536x1) (1 : Fin S65536x785.rank) X (val_main_v0 (F := Ideal))
    concatenates_S65536x784_S65536x1_S65536x785_d1 (ix2 r (k.castSucc : Fin 785)) rfl (ix2 r k) ?_
  intro b
  match b with
  | ⟨0, _⟩ => rfl
  | ⟨1, _⟩ => rfl

/-- At the seam, the last column, the joined array is its second piece's only column: the constant one. -/
theorem v1_right (X : (⟨S65536x784, .f32⟩ : BufTy).Contents (Elt Ideal)) (r : Fin 65536) :
    val_main_v1 (F := Ideal) X (ix2 r (Fin.last 784 : Fin 785)) = 1 := by
  unfold val_main_v1
  refine (concatenate_pair_apply_right (s₁ := S65536x784) (s₂ := S65536x1) (1 : Fin S65536x785.rank) X (val_main_v0 (F := Ideal))
    concatenates_S65536x784_S65536x1_S65536x785_d1 (ix2 r (Fin.last 784 : Fin 785)) rfl rfl (ix2 r (0 : Fin 1)) ?_ ?_).trans ?_
  · intro b hb
    match b, hb with
    | ⟨0, _⟩, _ => rfl
    | ⟨1, _⟩, hb => exact absurd rfl hb
  · rfl
  · rw [val_main_v0_apply, val_main_cst_apply, Ideal.ofBits_def]
    exact Cert.Mlp.ofBits_one

/-- The product's left operand is read at row `r`, column `k`. -/
theorem lidx2 (r : Fin 65536) (c : Fin 128) (k : Fin 785) : lidx_main_v2 (ix2 r c) k = ix2 r k :=
  funext fun a => Fin.ext (by match a with | ⟨0, _⟩ => rfl | ⟨1, _⟩ => rfl)

/-- The product's right operand is read at row `k`, column `c`. -/
theorem ridx2 (r : Fin 65536) (c : Fin 128) (k : Fin 785) : ridx_main_v2 (ix2 r c) k = ix2 k c :=
  funext fun a => Fin.ext (by match a with | ⟨0, _⟩ => rfl | ⟨1, _⟩ => rfl)

/-- A first-layer unit: the product entry is the dense-layer entry with the weight matrix's last row as bias, and the maximum
    is taken with zero. -/
theorem v4_eq (X : (⟨S65536x784, .f32⟩ : BufTy).Contents (Elt Ideal)) (W0 : (⟨S785x128, .f32⟩ : BufTy).Contents (Elt Ideal)) (r : Fin 65536) (b : Fin 128) :
    val_main_v4 (F := Ideal) X W0 (ix2 r b) = Cert.Mlp.act0 (fun a => X (ix2 r a)) (fun a b => W0 (ix2 a.castSucc b)) (fun b => W0 (ix2 (Fin.last 784) b)) b := by
  rw [val_main_v4_apply, val_main_v3_apply, val_main_cst_0_apply, Ideal.ofBits_def, Ideal.ofBits_zero_f32,
    Ideal.maximumf_def, val_main_v2_apply]
  unfold Cert.Mlp.act0
  congr 1
  simp only [lidx2, ridx2]
  exact Cert.Mlp.sum_snoc_one (n := 784) (fun k : Fin 785 => val_main_v1 (F := Ideal) X (ix2 r k))
    (fun k : Fin 785 => W0 (ix2 k b)) (fun a => X (ix2 r a)) (fun k => v1_left X r k) (v1_right X r)

/-! ## Second layer -/

/-- Left of the seam the joined array is its first piece at the same coordinates. -/
theorem v6_left (X : (⟨S65536x784, .f32⟩ : BufTy).Contents (Elt Ideal)) (W0 : (⟨S785x128, .f32⟩ : BufTy).Contents (Elt Ideal)) (r : Fin 65536) (k : Fin 128) :
    val_main_v6 (F := Ideal) X W0 (ix2 r (k.castSucc : Fin 129)) = val_main_v4 (F := Ideal) X W0 (ix2 r k) := by
  unfold val_main_v6
  refine concatenate_pair_apply_left (s₁ := S65536x128) (s₂ := S65536x1) (1 : Fin S65536x129.rank) (val_main_v4 (F := Ideal) X W0) (val_main_v5 (F := Ideal))
    concatenates_S65536x128_S65536x1_S65536x129_d1 (ix2 r (k.castSucc : Fin 129)) rfl (ix2 r k) ?_
  intro b
  match b with
  | ⟨0, _⟩ => rfl
  | ⟨1, _⟩ => rfl

/-- At the seam, the last column, the joined array is its second piece's only column: the constant one. -/
theorem v6_right (X : (⟨S65536x784, .f32⟩ : BufTy).Contents (Elt Ideal)) (W0 : (⟨S785x128, .f32⟩ : BufTy).Contents (Elt Ideal)) (r : Fin 65536) :
    val_main_v6 (F := Ideal) X W0 (ix2 r (Fin.last 128 : Fin 129)) = 1 := by
  unfold val_main_v6
  refine (concatenate_pair_apply_right (s₁ := S65536x128) (s₂ := S65536x1) (1 : Fin S65536x129.rank) (val_main_v4 (F := Ideal) X W0) (val_main_v5 (F := Ideal))
    concatenates_S65536x128_S65536x1_S65536x129_d1 (ix2 r (Fin.last 128 : Fin 129)) rfl rfl (ix2 r (0 : Fin 1)) ?_ ?_).trans ?_
  · intro b hb
    match b, hb with
    | ⟨0, _⟩, _ => rfl
    | ⟨1, _⟩, hb => exact absurd rfl hb
  · rfl
  · rw [val_main_v5_apply, val_main_cst_1_apply, Ideal.ofBits_def]
    exact Cert.Mlp.ofBits_one

/-- The product's left operand is read at row `r`, column `k`. -/
theorem lidx7 (r : Fin 65536) (c : Fin 64) (k : Fin 129) : lidx_main_v7 (ix2 r c) k = ix2 r k :=
  funext fun a => Fin.ext (by match a with | ⟨0, _⟩ => rfl | ⟨1, _⟩ => rfl)

/-- The product's right operand is read at row `k`, column `c`. -/
theorem ridx7 (r : Fin 65536) (c : Fin 64) (k : Fin 129) : ridx_main_v7 (ix2 r c) k = ix2 k c :=
  funext fun a => Fin.ext (by match a with | ⟨0, _⟩ => rfl | ⟨1, _⟩ => rfl)

/-- A second-layer unit: the same, with the first-layer units of the same row as inputs. -/
theorem v9_eq (X : (⟨S65536x784, .f32⟩ : BufTy).Contents (Elt Ideal)) (W0 : (⟨S785x128, .f32⟩ : BufTy).Contents (Elt Ideal)) (W1 : (⟨S129x64, .f32⟩ : BufTy).Contents (Elt Ideal)) (r : Fin 65536) (c : Fin 64) :
    val_main_v9 (F := Ideal) X W0 W1 (ix2 r c) = Cert.Mlp.act1 (fun a => X (ix2 r a)) (fun a b => W0 (ix2 a.castSucc b)) (fun b => W0 (ix2 (Fin.last 784) b))
        (fun b c => W1 (ix2 b.castSucc c)) (fun c => W1 (ix2 (Fin.last 128) c)) c := by
  rw [val_main_v9_apply, val_main_v8_apply, val_main_cst_2_apply, Ideal.ofBits_def, Ideal.ofBits_zero_f32,
    Ideal.maximumf_def, val_main_v7_apply]
  unfold Cert.Mlp.act1
  congr 1
  simp only [lidx7, ridx7]
  exact Cert.Mlp.sum_snoc_one (n := 128) (fun k : Fin 129 => val_main_v6 (F := Ideal) X W0 (ix2 r k))
    (fun k : Fin 129 => W1 (ix2 k c)) _ (fun k => (v6_left X W0 r k).trans (v4_eq X W0 r k)) (v6_right X W0 r)

/-! ## Output layer -/

/-- Left of the seam the joined array is its first piece at the same coordinates. -/
theorem v11_left (X : (⟨S65536x784, .f32⟩ : BufTy).Contents (Elt Ideal)) (W0 : (⟨S785x128, .f32⟩ : BufTy).Contents (Elt Ideal)) (W1 : (⟨S129x64, .f32⟩ : BufTy).Contents (Elt Ideal)) (r : Fin 65536) (k : Fin 64) :
    val_main_v11 (F := Ideal) X W0 W1 (ix2 r (k.castSucc : Fin 65)) = val_main_v9 (F := Ideal) X W0 W1 (ix2 r k) := by
  unfold val_main_v11
  refine concatenate_pair_apply_left (s₁ := S65536x64) (s₂ := S65536x1) (1 : Fin S65536x65.rank) (val_main_v9 (F := Ideal) X W0 W1) (val_main_v10 (F := Ideal))
    concatenates_S65536x64_S65536x1_S65536x65_d1 (ix2 r (k.castSucc : Fin 65)) rfl (ix2 r k) ?_
  intro b
  match b with
  | ⟨0, _⟩ => rfl
  | ⟨1, _⟩ => rfl

/-- At the seam, the last column, the joined array is its second piece's only column: the constant one. -/
theorem v11_right (X : (⟨S65536x784, .f32⟩ : BufTy).Contents (Elt Ideal)) (W0 : (⟨S785x128, .f32⟩ : BufTy).Contents (Elt Ideal)) (W1 : (⟨S129x64, .f32⟩ : BufTy).Contents (Elt Ideal)) (r : Fin 65536) :
    val_main_v11 (F := Ideal) X W0 W1 (ix2 r (Fin.last 64 : Fin 65)) = 1 := by
  unfold val_main_v11
  refine (concatenate_pair_apply_right (s₁ := S65536x64) (s₂ := S65536x1) (1 : Fin S65536x65.rank) (val_main_v9 (F := Ideal) X W0 W1) (val_main_v10 (F := Ideal))
    concatenates_S65536x64_S65536x1_S65536x65_d1 (ix2 r (Fin.last 64 : Fin 65)) rfl rfl (ix2 r (0 : Fin 1)) ?_ ?_).trans ?_
  · intro b hb
    match b, hb with
    | ⟨0, _⟩, _ => rfl
    | ⟨1, _⟩, hb => exact absurd rfl hb
  · rfl
  · rw [val_main_v10_apply, val_main_cst_3_apply, Ideal.ofBits_def]
    exact Cert.Mlp.ofBits_one

/-- The product's left operand is read at row `r`, column `k`. -/
theorem lidx12 (r : Fin 65536) (c : Fin 10) (k : Fin 65) : lidx_main_v12 (ix2 r c) k = ix2 r k :=
  funext fun a => Fin.ext (by match a with | ⟨0, _⟩ => rfl | ⟨1, _⟩ => rfl)

/-- The product's right operand is read at row `k`, column `c`. -/
theorem ridx12 (r : Fin 65536) (c : Fin 10) (k : Fin 65) : ridx_main_v12 (ix2 r c) k = ix2 k c :=
  funext fun a => Fin.ext (by match a with | ⟨0, _⟩ => rfl | ⟨1, _⟩ => rfl)

/-- An output entry: the dense-layer entry of the second-layer units of row `r` against column `j` of the last weight matrix;
    no maximum follows. -/
theorem v12_eq (X : (⟨S65536x784, .f32⟩ : BufTy).Contents (Elt Ideal)) (W0 : (⟨S785x128, .f32⟩ : BufTy).Contents (Elt Ideal)) (W1 : (⟨S129x64, .f32⟩ : BufTy).Contents (Elt Ideal)) (W2 : (⟨S65x10, .f32⟩ : BufTy).Contents (Elt Ideal)) (r : Fin 65536) (j : Fin 10) :
    val_main_v12 (F := Ideal) X W0 W1 W2 (ix2 r j) = Cert.Mlp.outEntry (fun a => X (ix2 r a)) (fun a b => W0 (ix2 a.castSucc b)) (fun b => W0 (ix2 (Fin.last 784) b))
        (fun b c => W1 (ix2 b.castSucc c)) (fun c => W1 (ix2 (Fin.last 128) c))
        (fun c => W2 (ix2 c.castSucc j)) (W2 (ix2 (Fin.last 64) j)) := by
  rw [val_main_v12_apply]
  unfold Cert.Mlp.outEntry
  simp only [lidx12, ridx12]
  exact Cert.Mlp.sum_snoc_one (n := 64) (fun k : Fin 65 => val_main_v11 (F := Ideal) X W0 W1 (ix2 r k))
    (fun k : Fin 65 => W2 (ix2 k j)) _ (fun k => (v11_left X W0 W1 r k).trans (v9_eq X W0 W1 r k)) (v11_right X W0 W1 r)

/-! ## The result -/

open Idealize.ShloMosaic Idealize.ShloMosaic.ValueIdx Cert.ReferenceIdeal in
/-- The reference program's result is the perceptron's result array: every index is `(r, j)` for its two coordinates, and
    the entry there is the output entry above. -/
theorem reference_eq (X : (⟨S65536x784, .f32⟩ : BufTy).Contents (Elt Ideal)) (W0 : (⟨S785x128, .f32⟩ : BufTy).Contents (Elt Ideal))
    (W1 : (⟨S129x64, .f32⟩ : BufTy).Contents (Elt Ideal)) (W2 : (⟨S65x10, .f32⟩ : BufTy).Contents (Elt Ideal)) :
    Cert.ReferenceIdeal.Read.val_main_v12 (F := Ideal) X W0 W1 W2 = Cert.Mlp.result X W0 W1 W2 := by
  funext i
  exact (congrArg (Cert.ReferenceIdeal.Read.val_main_v12 (F := Ideal) X W0 W1 W2) (eq_ix2 i)).trans
    (v12_eq X W0 W1 W2 (i 0) (i 1))

end Cert.Mlp.Ref

end
-- ==== Proof.lean ====
/-
  A three-layer perceptron applied to each of 65536 rows: the kernel program against its plain reference.

  Both programs map the input `X` (65536 × 784) and three weight matrices `W0` (785 × 128), `W1` (129 × 64), `W2` (65 × 10),
  each carrying its layer's bias as its last row, to the 65536 × 10 array whose row `r` is
  `L2 (max 0 (L1 (max 0 (L0 (X r)))))`, where `L (h) = h · W[:-1] + W[-1]`.

  The reference extends every layer's input row by a trailing `1` and multiplies by the whole weight matrix. The kernel
  splits each matrix into its first rows and its last row, widens the last layer's two pieces from 10 to 128 columns,
  runs a grid of sixteen points, each computing 4096 rows by three matrix products into zero accumulators with the bias
  row added, and returns the first ten columns of what the grid filled. On the extended reals the changes of float
  format are the identity, a product into a zero accumulator is the plain sum of products, and
  `∑ k < n + 1, g k · w k = (∑ k < n, g k · w k) + 1 · w n`: addition is commutative and associative and `1` is a unit whatever
  the entries are, so the two results agree entry by entry without any use of the inputs' finiteness (`Cert.Mlp.Spec`:
  the common function; `Cert.Mlp.KernelRun.run` and `Cert.Mlp.Ref.reference_eq`: each program computes it).

  The three frame claims are the generated frame runs (the reference's is its generated run with the result dropped), and
  the idealized kernel is the kernel's own text read on the extended reals: nothing was rewritten, so that claim is `True`.
-/
import proofs.«161041_j10574209483163_2_alg».proof.Defs
import proofs.«161041_j10574209483163_2_alg».proof.Proof.Gen.Kernel
import proofs.«161041_j10574209483163_2_alg».proof.Proof.Gen.Kernel.Frame
import proofs.«161041_j10574209483163_2_alg».proof.Proof.Gen.KernelIdeal
import proofs.«161041_j10574209483163_2_alg».proof.Proof.Gen.KernelIdeal.Frame
import proofs.«161041_j10574209483163_2_alg».proof.Proof.Gen.ReferenceIdeal
import proofs.«161041_j10574209483163_2_alg».proof.Proof.Gen.ReferenceIdeal.Run
import proofs.«161041_j10574209483163_2_alg».proof.Proof.Gen.ReferenceIdeal.Read
import proofs.«161041_j10574209483163_2_alg».proof.Proof.Gen.Pre_finite_inputs
import proofs.«161041_j10574209483163_2_alg».proof.Proof.KernelRun
import proofs.«161041_j10574209483163_2_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments, both programs end with the result array at the perceptron's output of
    those arguments. -/
theorem algebraic : Cert.algebraic_KernelIdeal_ReferenceIdeal := by
  intro m ρ m' ρ' _ hagree
  refine ⟨fun c => Cert.Mlp.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Mlp.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.Mlp.Ref.reference_eq, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
